-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x2048x2048 .f32) (main_arg1 : FVec F S2048x2048 .f32) (main_arg2 : FVec F S2048 .f32) (main_arg3 : FVec F S2048 .f32) (main_arg4 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 31
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S_, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .bf16⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S2048x2048_S_d0_1 : S2048x2048.ReducesTo [0, 1] S_
  h_S_ : 0 < S_.numel
  transposes_S2048x2048_S2048x2048_1_0 : S2048x2048.Transposes [1, 0] S2048x2048
  bcast_S_S2048x2048 : S_.BroadcastsInDim S2048x2048 (![] : Fin 0 → Fin S2048x2048.rank)
  bitsLt_bf16_f32 : FTy.bits .bf16 < FTy.bits .f32
  shapeCasts_S2048_S1x2048 : S2048.ShapeCasts S1x2048
  shapeCasts_S4x2048x2048_S8192x2048 : S4x2048x2048.ShapeCasts S8192x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S8192x2048_S4x2048x2048 : S8192x2048.ShapeCasts S4x2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v13) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S1x1x2048, .f32⟩
  | .hbm, ⟨29, _⟩ => ⟨S4x2048x2048, .f32⟩
  | .hbm, ⟨30, _⟩ => ⟨S4x2048x2048, .f32⟩
  | .hbm, ⟨31, _⟩ => ⟨S1x1x2048, .f32⟩
  | .hbm, ⟨32, _⟩ => ⟨S4x2048x2048, .f32⟩
  | .hbm, ⟨33, _⟩ => ⟨S4x2048x2048, .f32⟩
  | .hbm, ⟨34, _⟩ => ⟨S2048x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S4x2048x2048, .f32⟩
  | .hbm, ⟨53, _⟩ => ⟨S1x1x2048, .f32⟩
  | .hbm, ⟨54, _⟩ => ⟨S4x2048x2048, .f32⟩
  | .hbm, ⟨55, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  reducesTo_S2048x2048_S_d0_1 : S2048x2048.ReducesTo [0, 1] S_
  bcast_S_S2048x2048 : S_.BroadcastsInDim S2048x2048 (![] : Fin 0 → Fin S2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.Spec.lean ====
/-
  Layer normalisation of a row of 2048 entries followed by one output of a linear map whose weights are
  quantised to {-1, 0, 1}, written once as a function of scalars on the extended reals.

  For a row `x`, a gain `g`, a shift `b`, a column `w` of quantised weights and a bias `β`:
    mean x      = (Σ_k x_k) / 2048
    centred x k = x_k − mean x
    normed k    = centred x k · rsqrt (mean (centred x)² + ε) · g_k + b_k
    affine      = (Σ_k normed k · w_k) + β
  and a weight `v` is quantised, against the scale `s` of its matrix, to
    ternary s v = min 1 (max (−1) (round-half-even (v / s))),   s = (Σ |W|) / 2²² + ε.
  The literals are kept as their float words; ε is the single-precision value nearest 1e-5 on both sides.
-/
import Idealize.ShloMosaic.PureOps.Ideal.Laws
import Idealize.ShloMosaic.Lib.ValueIdx

noncomputable section

namespace Cert.LnTernary

open Idealize.ShloMosaic Idealize.ShloMosaic.ValueIdx

/-- The weight matrix's shape and the scalar shape. -/
abbrev WShape : Shape := ⟨2, ![2048, 2048]⟩
abbrev Scal : Shape := ⟨0, ![]⟩

/-- The mean of 2048 entries: their sum divided by the float 2048. -/
def mean (f : Fin 2048 → EReal) : EReal := Ideal.div (∑ k, f k) (Ideal.ofBits .f32 0x45000000#32)

/-- An entry less the row's mean. -/
def centred (row : Fin 2048 → EReal) (k : Fin 2048) : EReal := row k - mean row

/-- The layer-normalised entry: centred, scaled by the reciprocal root of the variance plus ε, then gain and shift. -/
def normed (row g b : Fin 2048 → EReal) (k : Fin 2048) : EReal :=
  centred row k * Ideal.rsqrt (mean (fun j => centred row j * centred row j) + Ideal.ofBits .f32 0x3727C5AC#32) * g k + b k

/-- One output: the normalised row against a column of weights, plus the bias. -/
def affine (row g b col : Fin 2048 → EReal) (β : EReal) : EReal := (∑ k, normed row g b k * col k) + β

theorem redW : WShape.ReducesTo [0, 1] Scal := by decide
theorem posScal : 0 < Scal.numel := by decide

/-- The quantiser's scale: the mean absolute weight (the sum of all 2²² absolute values over the float 2²²) plus ε. -/
def scale (W : FVec Ideal WShape .f32) : EReal :=
  addf (Host.divf (Host.reduceAdd (Host.absf W) (constant (F := Ideal) Scal .f32 0x00000000#32) redW posScal)
    (constant (F := Ideal) Scal .f32 0x4A800000#32)) (constant (F := Ideal) Scal .f32 0x3727C5AC#32) ix0

/-- A weight over the scale, rounded half to even and clipped to [-1, 1]. -/
def ternary (s v : EReal) : EReal :=
  min (Ideal.ofBits .f32 0x3F800000#32) (max (Ideal.ofBits .f32 0xBF800000#32) (Ideal.liftRound Ideal.roundHalfEven (Ideal.div v s)))

/-- The input's shape, a vector's, and the input with its two leading axes merged. -/
abbrev XShape : Shape := ⟨3, ![4, 2048, 2048]⟩
abbrev VShape : Shape := ⟨1, ![2048]⟩
abbrev FlatShape : Shape := ⟨2, ![8192, 2048]⟩

/-- THE RESULT as one function of the five arguments: at (b, s, o), row (b, s) of the input, normalised with the gain
    and shift, against row o of the quantised weight matrix, plus the bias at o. -/
def result (X : FVec Ideal XShape .f32) (W : FVec Ideal WShape .f32) (β g b : FVec Ideal VShape .f32) : FVec Ideal XShape .f32 :=
  fun i => affine (fun j => X (ix3 (i 0) (i 1) j)) (fun j => g (ix1 j)) (fun j => b (ix1 j))
    (fun k => ternary (scale W) (W (ix2 (i 2) k))) (β (ix1 (i 2)))

/-- The same laid out as 8192 rows: row r is row (r / 2048, r % 2048) of the result. -/
def flat (X : FVec Ideal XShape .f32) (W : FVec Ideal WShape .f32) (β g b : FVec Ideal VShape .f32) : FVec Ideal FlatShape .f32 :=
  fun i => result X W β g b (ix3 (⟨(i 0).val / 2048, by have := idx2_lt0 i; omega⟩ : Fin 4)
    (⟨(i 0).val % 2048, Nat.mod_lt _ (by decide)⟩ : Fin 2048) (i 1))

end Cert.LnTernary

end
-- ==== Proof.RefSpec.lean ====
/-
  The reference, read at one output index (b, s, o), is the specification: the layer-normalised row (b, s) of the
  input against row o of the quantised weight matrix, plus the bias at o. Every stage of the reference is read at an
  index by the generated lemmas; what is added here is the arithmetic of the composed index maps (each is the
  evident coordinate triple) and the identification of the host's division, reciprocal root and rounding with the
  extended reals' own.
-/
import proofs.«111783_j44135083934122_2_alg».proof.Proof.Gen.ReferenceIdeal.Read
import proofs.«111783_j44135083934122_2_alg».proof.Proof.Spec

noncomputable section

namespace Cert.LnTernary.Ref

open Cert.ReferenceIdeal Cert.ReferenceIdeal.Gen Cert.ReferenceIdeal.Read Idealize.ShloMosaic Idealize.ShloMosaic.ValueIdx
open Cert.LnTernary

/-- The quantiser's scale, at the scalar shape's one index. -/
theorem scale_eq (x1 : FVec Ideal S2048x2048 .f32) (i : S_.Idx) : val_main_v27 (F := Ideal) x1 i = scale x1 := by
  obtain rfl := eq_ix0 i
  rfl

/-- Row o, column k of the quantised weights. -/
theorem ternary_eq (x1 : FVec Ideal S2048x2048 .f32) (o k : Fin 2048) :
    val_main_v31 (F := Ideal) x1 (ix2 o k) = ternary (scale x1) (x1 (ix2 o k)) := by
  rw [val_main_v31_apply, val_main_call1_v4_apply, val_main_call1_v3_apply, val_main_cst_8_apply, val_main_call1_v2_apply,
    val_main_call1_v1_apply, val_main_call1_v0_apply, val_main_cst_7_apply, val_main_v30_apply, val_main_v29_apply,
    val_main_v28_apply, scale_eq]
  rfl

/-- The mean of row (b, s). -/
theorem mean_eq (x0 : FVec Ideal S4x2048x2048 .f32) (b : Fin 4) (s : Fin 2048) (u : Fin 1) :
    val_main_v3 (F := Ideal) x0 (ix3 b s u) = mean (fun j => x0 (ix3 b s j)) := by
  rw [val_main_v3_apply, val_main_v1_apply, val_main_v0_apply, val_main_v2_apply, val_main_cst_apply, val_main_cst_0_apply]
  unfold mean
  rw [Ideal.hostDivf_def, Ideal.ofBits_def, Ideal.ofBits_def, Ideal.ofBits_zero_f32, zero_add]
  refine congrArg (Ideal.div · _) (Finset.sum_congr rfl fun k _ => congrArg x0 ?_)
  funext a; apply Fin.ext
  match a with
  | ⟨0, _⟩ => rfl
  | ⟨1, _⟩ => rfl
  | ⟨2, _⟩ => rfl

/-- The broadcast mean at any entry of row (b, s). -/
theorem idx4_eq (b : Fin 4) (s : Fin 2048) (k : Fin 2048) : idx_main_v4 (ix3 b s k) = ix3 b s (0 : Fin 1) := by
  funext a; apply Fin.ext
  match a with
  | ⟨0, _⟩ => rfl
  | ⟨1, _⟩ => rfl
  | ⟨2, _⟩ => rfl

/-- An entry of row (b, s) less the mean (the stage squared for the variance). -/
theorem centred_eq5 (x0 : FVec Ideal S4x2048x2048 .f32) (b : Fin 4) (s : Fin 2048) (k : Fin 2048) :
    val_main_v5 (F := Ideal) x0 (ix3 b s k) = centred (fun j => x0 (ix3 b s j)) k := by
  rw [val_main_v5_apply, val_main_v4_apply, idx4_eq, mean_eq]
  rfl

/-- The same entry as the stage that is normalised reads it. -/
theorem centred_eq12 (x0 : FVec Ideal S4x2048x2048 .f32) (b : Fin 4) (s : Fin 2048) (k : Fin 2048) :
    val_main_v12 (F := Ideal) x0 (ix3 b s k) = centred (fun j => x0 (ix3 b s j)) k := by
  rw [val_main_v12_apply, val_main_v11_apply, show idx_main_v11 (ix3 b s k) = ix3 b s (0 : Fin 1) from idx4_eq b s k, mean_eq]
  rfl

/-- The variance of row (b, s): the mean of the squared centred entries. -/
theorem var_eq (x0 : FVec Ideal S4x2048x2048 .f32) (b : Fin 4) (s : Fin 2048) (u : Fin 1) :
    val_main_v10 (F := Ideal) x0 (ix3 b s u)
      = mean (fun j => centred (fun j => x0 (ix3 b s j)) j * centred (fun j => x0 (ix3 b s j)) j) := by
  rw [val_main_v10_apply, val_main_v8_apply, val_main_v7_apply, val_main_v9_apply, val_main_cst_1_apply, val_main_cst_2_apply]
  unfold mean
  rw [Ideal.hostDivf_def, Ideal.ofBits_def, Ideal.ofBits_def, Ideal.ofBits_zero_f32, zero_add]
  refine congrArg (Ideal.div · _) (Finset.sum_congr rfl fun k _ => ?_)
  have e : idx_main_v7 (idx_main_v8 (ix3 b s u)) k = ix3 b s k := by
    funext a; apply Fin.ext
    match a with
    | ⟨0, _⟩ => rfl
    | ⟨1, _⟩ => rfl
    | ⟨2, _⟩ => rfl
  rw [e, val_main_v6_apply, centred_eq5]
  rfl

/-- The layer-normalised entry (b, s, k). -/
theorem normed_eq (x0 : FVec Ideal S4x2048x2048 .f32) (x3 x4 : FVec Ideal S2048 .f32) (b : Fin 4) (s : Fin 2048) (k : Fin 2048) :
    val_main_v23 (F := Ideal) x0 x3 x4 (ix3 b s k)
      = normed (fun j => x0 (ix3 b s j)) (fun j => x3 (ix1 j)) (fun j => x4 (ix1 j)) k := by
  rw [val_main_v23_apply, val_main_v20_apply, val_main_v17_apply, centred_eq12, val_main_v16_apply,
    show idx_main_v16 (ix3 b s k) = ix3 b s (0 : Fin 1) from idx4_eq b s k, val_main_v15_apply, val_main_v14_apply, var_eq,
    val_main_v13_apply, val_main_cst_3_apply, val_main_v19_apply, val_main_v18_apply, val_main_v22_apply, val_main_v21_apply]
  have e3 : idx_main_v18 (idx_main_v19 (ix3 b s k)) = ix1 k := by
    funext a; apply Fin.ext
    match a with
    | ⟨0, _⟩ => rfl
  have e4 : idx_main_v21 (idx_main_v22 (ix3 b s k)) = ix1 k := by
    funext a; apply Fin.ext
    match a with
    | ⟨0, _⟩ => rfl
  rw [e3, e4]
  rfl

/-- THE REFERENCE AT (b, s, o) is the specification's output for row (b, s) and weight row o. -/
theorem reference_apply (x0 : FVec Ideal S4x2048x2048 .f32) (x1 : FVec Ideal S2048x2048 .f32) (x2 x3 x4 : FVec Ideal S2048 .f32)
    (b : Fin 4) (s : Fin 2048) (o : Fin 2048) :
    val_main_v35 (F := Ideal) x0 x1 x2 x3 x4 (ix3 b s o)
      = affine (fun j => x0 (ix3 b s j)) (fun j => x3 (ix1 j)) (fun j => x4 (ix1 j))
          (fun k => ternary (scale x1) (x1 (ix2 o k))) (x2 (ix1 o)) := by
  rw [val_main_v35_apply, val_main_v32_apply, val_main_v34_apply, val_main_v33_apply]
  have eb : idx_main_v33 (idx_main_v34 (ix3 b s o)) = ix1 o := by
    funext a; apply Fin.ext
    match a with
    | ⟨0, _⟩ => rfl
  rw [eb]
  unfold affine
  rw [Ideal.addf_def]
  refine congrArg (· + _) (Finset.sum_congr rfl fun k _ => ?_)
  have el : lidx_main_v32 (ix3 b s o) k = ix3 b s k := by
    funext a; apply Fin.ext
    match a with
    | ⟨0, _⟩ => rfl
    | ⟨1, _⟩ => rfl
    | ⟨2, _⟩ => rfl
  have er : ridx_main_v32 (ix3 b s o) k = ix2 o k := by
    funext a; apply Fin.ext
    match a with
    | ⟨0, _⟩ => rfl
    | ⟨1, _⟩ => rfl
  rw [el, er, normed_eq, ternary_eq]

/-- THE REFERENCE'S RESULT, as an array, is the specification's result of the five arguments. -/
theorem reference_eq (x0 : FVec Ideal S4x2048x2048 .f32) (x1 : FVec Ideal S2048x2048 .f32) (x2 x3 x4 : FVec Ideal S2048 .f32) :
    val_main_v35 (F := Ideal) x0 x1 x2 x3 x4 = result x0 x1 x2 x3 x4 := by
  funext i
  obtain ⟨b, s, o, rfl⟩ : ∃ (b : Fin 4) (s o : Fin 2048), i = ix3 b s o := ⟨i 0, i 1, i 2, eq_ix3 i⟩
  exact reference_apply x0 x1 x2 x3 x4 b s o

end Cert.LnTernary.Ref

end
-- ==== Proof.KernelHost.lean ====
/-
  What the kernel's region finds in the five arrays it stages, as functions of the program's arguments read at an
  index. The input is the argument with its two leading axes merged, so row r is row (r / 2048, r % 2048); the gain,
  the shift and the bias are the argument vectors as one-row matrices; and the weight block at (k, o) is the
  quantised weight (o, k): the host transposes the matrix before dividing by the scale, rounding and clipping, all of
  which act entry by entry, and the final change of float format is the identity on the extended reals.
-/
import proofs.«111783_j44135083934122_2_alg».proof.Proof.Gen.KernelIdeal.Frame
import proofs.«111783_j44135083934122_2_alg».proof.Proof.Spec
import Idealize.ShloMosaic.Lib.ValueLayout
import Idealize.ShloMosaic.Lib.StableHlo.Run

noncomputable section

namespace Cert.LnTernary.Kernel

open Cert.KernelIdeal Cert.KernelIdeal.Gen Idealize.ShloMosaic Idealize.ShloMosaic.TcCoe Idealize.ShloMosaic.ValueIdx
open Idealize.SL.Sem Idealize.ShloMosaic.StableHlo
open Cert.LnTernary

variable (m : (ℓ : Loc nD τ sig) → Buf (Elt Ideal) ℓ)

/-- The staged input is the argument reshaped to 8192 rows. -/
theorem V_input (c : Dev nD) :
    (V m c main_v13 : S8192x2048.Idx → EReal)
      = shapeCast S8192x2048 (m ((c : Thread nD τ).loc main_arg0)) shapeCasts_S4x2048x2048_S8192x2048 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Row r of the staged input is row (r / 2048, r % 2048) of the argument. -/
theorem input_apply (c : Dev nD) (r : Fin 8192) (k : Fin 2048) :
    (V m c main_v13 : S8192x2048.Idx → EReal) (ix2 r k)
      = (m ((c : Thread nD τ).loc main_arg0) : S4x2048x2048.Idx → EReal)
          (ix3 (⟨r.val / 2048, by have := r.isLt; omega⟩ : Fin 4) (⟨r.val % 2048, Nat.mod_lt _ (by decide)⟩ : Fin 2048) k) := by
  rw [V_input]
  refine shapeCast_apply _ _ _ _ ?_
  show (S4x2048x2048.rowMajor (ix3 (⟨r.val / 2048, by have := r.isLt; omega⟩ : Fin 4)
    (⟨r.val % 2048, Nat.mod_lt _ (by decide)⟩ : Fin 2048) k)).val = (S8192x2048.rowMajor (ix2 r k)).val
  rw [Shape.rowMajor_val_three, Shape.rowMajor_val_two]
  show (r.val / 2048 * 2048 + r.val % 2048) * 2048 + k.val = r.val * 2048 + k.val
  omega

/-- The staged gain is the argument vector as a one-row matrix. -/
theorem V_gain (c : Dev nD) :
    (V m c main_v10 : S1x2048.Idx → EReal) = shapeCast S1x2048 (m ((c : Thread nD τ).loc main_arg3)) shapeCasts_S2048_S1x2048 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl
theorem gain_apply (c : Dev nD) (u : Fin 1) (k : Fin 2048) :
    (V m c main_v10 : S1x2048.Idx → EReal) (ix2 u k) = (m ((c : Thread nD τ).loc main_arg3) : S2048.Idx → EReal) (ix1 k) := by
  rw [V_gain]
  exact shapeCast_a_1a_apply _ _ u k

/-- The staged shift likewise. -/
theorem V_shift (c : Dev nD) :
    (V m c main_v11 : S1x2048.Idx → EReal) = shapeCast S1x2048 (m ((c : Thread nD τ).loc main_arg4)) shapeCasts_S2048_S1x2048 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl
theorem shift_apply (c : Dev nD) (u : Fin 1) (k : Fin 2048) :
    (V m c main_v11 : S1x2048.Idx → EReal) (ix2 u k) = (m ((c : Thread nD τ).loc main_arg4) : S2048.Idx → EReal) (ix1 k) := by
  rw [V_shift]
  exact shapeCast_a_1a_apply _ _ u k

/-- And the staged bias. -/
theorem V_bias (c : Dev nD) :
    (V m c main_v12 : S1x2048.Idx → EReal) = shapeCast S1x2048 (m ((c : Thread nD τ).loc main_arg2)) shapeCasts_S2048_S1x2048 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl
theorem bias_apply (c : Dev nD) (u : Fin 1) (o : Fin 2048) :
    (V m c main_v12 : S1x2048.Idx → EReal) (ix2 u o) = (m ((c : Thread nD τ).loc main_arg2) : S2048.Idx → EReal) (ix1 o) := by
  rw [V_bias]
  exact shapeCast_a_1a_apply _ _ u o

/-- The staged weights: the transposed matrix over the broadcast scale, rounded, clipped, and changed of format. -/
theorem V_weights (c : Dev nD) :
    (V m c main_v9 : S2048x2048.Idx → EReal)
      = truncf .bf16
          (minimumf (broadcastInDim S2048x2048 ![] bcast_S_S2048x2048 (id (constant (F := Ideal) S_ .f32 0x3F800000#32)))
            (maximumf (broadcastInDim S2048x2048 ![] bcast_S_S2048x2048 (id (constant (F := Ideal) S_ .f32 0xBF800000#32)))
              (Host.roundeven
                (Host.divf
                  (transpose S2048x2048 [1, 0] (m ((c : Thread nD τ).loc main_arg1) : FVec Ideal S2048x2048 .f32) transposes_S2048x2048_S2048x2048_1_0)
                  (broadcastInDim S2048x2048 ![] bcast_S_S2048x2048
                    (addf
                      (Host.divf
                        (Host.reduceAdd (Host.absf (m ((c : Thread nD τ).loc main_arg1) : FVec Ideal S2048x2048 .f32)) (constant (F := Ideal) S_ .f32 0x00000000#32)
                          reducesTo_S2048x2048_S_d0_1 h_S_)
                        (constant (F := Ideal) S_ .f32 0x4A800000#32))
                      (constant (F := Ideal) S_ .f32 0x3727C5AC#32)))))))
          bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- A scalar broadcast over the matrix reads the scalar everywhere. -/
theorem bcastScalar_apply (y : FVec Ideal S_ .f32) (j : S2048x2048.Idx) :
    broadcastInDim S2048x2048 ![] bcast_S_S2048x2048 y j = y ix0 :=
  broadcastInDim_apply _ bcast_S_S2048x2048 y j ix0 (fun a => a.elim0)

/-- The host's rounding and division act entry by entry. -/
theorem hostRoundeven_apply {s : Shape} (v : FVec Ideal s .f32) (i : s.Idx) :
    Host.roundeven v i = FloatOps.hostUnary .roundeven (v i) := rfl
theorem hostDivf_apply {s : Shape} (a b : FVec Ideal s .f32) (i : s.Idx) :
    Host.divf a b i = FloatOps.hostDivf (a i) (b i) := rfl

/-- The staged weight at (k, o) is the quantised weight (o, k). -/
theorem weights_apply (c : Dev nD) (k o : Fin 2048) :
    (V m c main_v9 : S2048x2048.Idx → EReal) (ix2 k o)
      = ternary (scale (m ((c : Thread nD τ).loc main_arg1))) ((m ((c : Thread nD τ).loc main_arg1) : S2048x2048.Idx → EReal) (ix2 o k)) := by
  rw [V_weights, truncf_apply, minimumf_apply, maximumf_apply, bcastScalar_apply, bcastScalar_apply, hostRoundeven_apply,
    hostDivf_apply, transpose_ix2_apply, bcastScalar_apply]
  rfl

end Cert.LnTernary.Kernel

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.KernelPayload.lean ====
/-
  The kernel body's stored value, read at row p and column q of its block, is the specification: the layer-normalised
  row p of the input block against column q of the weight block, plus the bias at q. The row sums are the lane
  reductions read as sums over a row; the keep-axis column and its broadcast back over the lanes read the row's value
  at every lane; the matrix product into a zero accumulator is the sum over the contraction index; the change of float
  format before the product is the identity on the extended reals.
-/
import proofs.«111783_j44135083934122_2_alg».proof.Proof.Gen.KernelIdeal.Skeleton
import proofs.«111783_j44135083934122_2_alg».proof.Proof.Spec
import proofs.«111783_j44135083934122_2_alg».proof.Proof.LibKeepdims
import Idealize.ShloMosaic.Lib.ValueLayout

noncomputable section

namespace Cert.LnTernary.Kernel

open Cert.KernelIdeal Cert.KernelIdeal.Gen Idealize.ShloMosaic Idealize.ShloMosaic.ValueIdx
open Cert.Lib.Keepdims Cert.LnTernary

/-- A reciprocal root at an index is the extended reals' reciprocal root of the entry. -/
theorem rsqrt_apply {s : Shape} {φ : FTy} (v : FVec Ideal s φ) (i : s.Idx) : rsqrt v i = Ideal.rsqrt (v i) := rfl

/-- A row's keep-axis mean, as a column: at (p, u) it is the mean of row p. -/
theorem colMean_apply (v : FVec Ideal S512x2048 .f32) (p : Fin 512) (u : Fin 1) :
    divf (shapeCast S512x1 (multiReduction .add [1] S512 v 0x00000000#32 reduces_S512x2048_S512 (.inl rfl) rfl)
        shapeCasts_S512_S512x1) (broadcast S512x1 (FloatOps.ofBits (F := Ideal) .f32 0x45000000#32)) (ix2 p u)
      = mean (fun j => v (ix2 p j)) := by
  rw [divf_apply, shapeCast_a_a1_apply, rowSum_apply]
  rfl

/-- An entry of the block less its row's mean, the mean taken as a keep-axis column and broadcast back. -/
theorem centredStage_apply (x0 : FVec Ideal S512x2048 .f32) (p : Fin 512) (k : Fin 2048) :
    subf x0 (broadcastTo S512x2048 (divf (shapeCast S512x1 (multiReduction .add [1] S512 x0 0x00000000#32 reduces_S512x2048_S512 (.inl rfl) rfl)
        shapeCasts_S512_S512x1) (broadcast S512x1 (FloatOps.ofBits (F := Ideal) .f32 0x45000000#32))) broadcasts_S512x1_S512x2048) (ix2 p k)
      = centred (fun j => x0 (ix2 p j)) k := by
  rw [subf_apply, broadcastTo_a1_ab_apply, colMean_apply]
  rfl

/-- The row's variance as a keep-axis column: the mean of the squared centred entries. -/
theorem varStage_apply (x0 : FVec Ideal S512x2048 .f32) (p : Fin 512) (u : Fin 1) :
    divf (shapeCast S512x1 (multiReduction .add [1] S512
        (mulf
          (subf x0 (broadcastTo S512x2048 (divf (shapeCast S512x1 (multiReduction .add [1] S512 x0 0x00000000#32 reduces_S512x2048_S512 (.inl rfl) rfl)
            shapeCasts_S512_S512x1) (broadcast S512x1 (FloatOps.ofBits (F := Ideal) .f32 0x45000000#32))) broadcasts_S512x1_S512x2048))
          (subf x0 (broadcastTo S512x2048 (divf (shapeCast S512x1 (multiReduction .add [1] S512 x0 0x00000000#32 reduces_S512x2048_S512 (.inl rfl) rfl)
            shapeCasts_S512_S512x1) (broadcast S512x1 (FloatOps.ofBits (F := Ideal) .f32 0x45000000#32))) broadcasts_S512x1_S512x2048)))
        0x00000000#32 reduces_S512x2048_S512 (.inl rfl) rfl)
        shapeCasts_S512_S512x1) (broadcast S512x1 (FloatOps.ofBits (F := Ideal) .f32 0x45000000#32)) (ix2 p u)
      = mean (fun j => centred (fun j => x0 (ix2 p j)) j * centred (fun j => x0 (ix2 p j)) j) := by
  rw [colMean_apply]
  refine congrArg mean (funext fun j => ?_)
  rw [mulf_apply, centredStage_apply]

/-- The left operand's row coordinate is the output's row. -/
theorem lhs_coord0 (i : S512x2048.Idx) (c : dot_S512x2048_S2048x2048_S512x2048_1_0_0_1_n_n.contr.Idx) :
    (dot_S512x2048_S2048x2048_S512x2048_1_0_0_1_n_n.lhsIdx i c 0).val = (i 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

/-- The right operand's column coordinate is the output's column. -/
theorem rhs_coord1 (i : S512x2048.Idx) (c : dot_S512x2048_S2048x2048_S512x2048_1_0_0_1_n_n.contr.Idx) :
    (dot_S512x2048_S2048x2048_S512x2048_1_0_0_1_n_n.rhsIdx i c 1).val = (i 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The left operand's index of the product at output (p, q) and contraction position k is (p, k). -/
theorem lhs_index (p : Fin 512) (q : Fin 2048) (k : Fin 2048) :
    dot_S512x2048_S2048x2048_S512x2048_1_0_0_1_n_n.lhsIdx (ix2 p q)
      ((contrEquiv1 dot_S512x2048_S2048x2048_S512x2048_1_0_0_1_n_n 2048 rfl rfl).symm k) = ix2 p k := by
  have hk := contrEquiv1_symm_val dot_S512x2048_S2048x2048_S512x2048_1_0_0_1_n_n 2048 rfl rfl k
  funext a; apply Fin.ext
  match a with
  | ⟨0, _⟩ => exact lhs_coord0 _ _
  | ⟨1, _⟩ => exact (dot_S512x2048_S2048x2048_S512x2048_1_0_0_1_n_n.lhsIdx_val_of_single rfl _ _).trans hk

/-- The right operand's index there is (k, q). -/
theorem rhs_index (p : Fin 512) (q : Fin 2048) (k : Fin 2048) :
    dot_S512x2048_S2048x2048_S512x2048_1_0_0_1_n_n.rhsIdx (ix2 p q)
      ((contrEquiv1 dot_S512x2048_S2048x2048_S512x2048_1_0_0_1_n_n 2048 rfl rfl).symm k) = ix2 k q := by
  have hk := contrEquiv1_symm_val dot_S512x2048_S2048x2048_S512x2048_1_0_0_1_n_n 2048 rfl rfl k
  funext a; apply Fin.ext
  match a with
  | ⟨0, _⟩ => exact (dot_S512x2048_S2048x2048_S512x2048_1_0_0_1_n_n.rhsIdx_val_of_single rfl _ _).trans hk
  | ⟨1, _⟩ => exact rhs_coord1 _ _

/-- THE STORED VALUE AT (p, q) is the specification's output for row p of the input block and column q of the weights. -/
theorem payload_apply (x0 : Vec Ideal S512x2048 .f32) (x1 x2 : Vec Ideal S1x2048 .f32) (x3 : Vec Ideal S2048x2048 .bf16)
    (x4 : Vec Ideal S1x2048 .f32) (p : Fin 512) (q : Fin 2048) :
    k0_pay1 (F := Ideal) x0 x1 x2 x3 x4 (ix2 p q)
      = affine (fun j => x0 (ix2 p j)) (fun j => x1 (ix2 (0 : Fin 1) j)) (fun j => x2 (ix2 (0 : Fin 1) j))
          (fun k => x3 (ix2 k q)) (x4 (ix2 (0 : Fin 1) q)) := by
  unfold k0_pay1
  dsimp only
  simp only [shapeCast_self, matmul]
  rw [addf_apply, Ideal.matmul_constant_zero_apply, broadcastTo_1b_ab_apply]
  unfold affine
  refine congrArg (· + _) ?_
  rw [← Equiv.sum_comp (contrEquiv1 dot_S512x2048_S2048x2048_S512x2048_1_0_0_1_n_n 2048 rfl rfl).symm]
  refine Finset.sum_congr rfl fun k _ => ?_
  rw [lhs_index, rhs_index]
  refine congrArg (· * _) ?_
  rw [truncf_apply, addf_apply, mulf_apply, mulf_apply, centredStage_apply, broadcastTo_a1_ab_apply, rsqrt_apply, addf_apply,
    varStage_apply, broadcast_apply, broadcastTo_1b_ab_apply, broadcastTo_1b_ab_apply]
  rfl

end Cert.LnTernary.Kernel

end
-- ==== Proof.KernelBlocks.lean ====
/-
  From the sixteen blocks to the whole array. Grid point t stages rows 512·t … 512·t + 511 of the input and of the
  output, and the whole of the gain, shift, weight and bias arrays at every point; so what point t writes back is rows
  512·t … 512·t + 511 of one function of the arguments, the flat form of the specification. Row r of the output lies
  in the block of point r / 512, the sixteen blocks cover the 8192 rows, and the output array ends holding that function.
-/
import proofs.«111783_j44135083934122_2_alg».proof.Proof.KernelHost
import proofs.«111783_j44135083934122_2_alg».proof.Proof.KernelPayload
import Idealize.ShloMosaic.Lib.Pipeline.Value

noncomputable section

namespace Cert.LnTernary.Kernel

open Cert.KernelIdeal Cert.KernelIdeal.Gen Idealize.ShloMosaic Idealize.ShloMosaic.TcCoe Idealize.ShloMosaic.ValueIdx
open Idealize.SL.Sem
open Idealize.ShloMosaic.Pipeline (Dat)
open Cert.LnTernary

variable (m : (ℓ : Loc nD τ sig) → Buf (Elt Ideal) ℓ)

/-- The flat specification of the five arguments as core c holds them at launch. -/
def spec (c : Dev nD) : FVec Ideal S8192x2048 .f32 :=
  flat (m ((c : Thread nD τ).loc main_arg0)) (m ((c : Thread nD τ).loc main_arg1)) (m ((c : Thread nD τ).loc main_arg2))
    (m ((c : Thread nD τ).loc main_arg3)) (m ((c : Thread nD τ).loc main_arg4))

theorem hz : (![0, 0] : Fin 2 → Nat) = fun _ => 0 := funext fun a => by fin_cases a <;> rfl

/-- The block indices over the sixteen grid points: the input and the output move one block of rows per point, the other
    four windows stay on their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem points : cfg0.N = 16 := N_0

/-- Row p of the input block at point t is row 512·t + p of the staged input. -/
theorem inputBlock_apply (c : Dev nD) (t : Fin cfg0.N) (p : Fin 512) (k : Fin 2048) :
    (iblk m c 0 t : Vec Ideal S512x2048 .f32) (ix2 p k)
      = (V m c main_v13 : S8192x2048.Idx → EReal) (ix2 (⟨512 * t.val + p.val, by have := t.isLt; have := points; omega⟩ : Fin 8192) k) := by
  obtain ⟨e0, e1, -⟩ := block_indices t
  unfold iblk
  rw [View.read_apply]
  show V m c main_v13 _ = V m c main_v13 _
  congr 1
  funext a
  apply Fin.ext
  match a with
  | ⟨0, _⟩ => show win0_0.index t 0 * 512 + 1 * p.val = 512 * t.val + p.val; rw [e0]; omega
  | ⟨1, _⟩ => show win0_0.index t 1 * 2048 + 1 * k.val = k.val; rw [e1]; omega

/-- The gain's block is the whole staged gain. -/
theorem gainBlock_apply (c : Dev nD) (t : Fin cfg0.N) (u : Fin 1) (k : Fin 2048) :
    (iblk m c 1 t : Vec Ideal S1x2048 .f32) (ix2 u k) = (V m c main_v10 : S1x2048.Idx → EReal) (ix2 u k) := by
  obtain ⟨-, -, e0, e1, -⟩ := block_indices t
  unfold iblk
  rw [View.read_apply]
  show V m c main_v10 _ = V m c main_v10 _
  congr 1
  funext a
  apply Fin.ext
  match a with
  | ⟨0, _⟩ => show win0_1.index t 0 * 1 + 1 * u.val = u.val; rw [e0]; omega
  | ⟨1, _⟩ => show win0_1.index t 1 * 2048 + 1 * k.val = k.val; rw [e1]; omega

/-- The shift's block is the whole staged shift. -/
theorem shiftBlock_apply (c : Dev nD) (t : Fin cfg0.N) (u : Fin 1) (k : Fin 2048) :
    (iblk m c 2 t : Vec Ideal S1x2048 .f32) (ix2 u k) = (V m c main_v11 : S1x2048.Idx → EReal) (ix2 u k) := by
  obtain ⟨-, -, -, -, e0, e1, -⟩ := block_indices t
  unfold iblk
  rw [View.read_apply]
  show V m c main_v11 _ = V m c main_v11 _
  congr 1
  funext a
  apply Fin.ext
  match a with
  | ⟨0, _⟩ => show win0_2.index t 0 * 1 + 1 * u.val = u.val; rw [e0]; omega
  | ⟨1, _⟩ => show win0_2.index t 1 * 2048 + 1 * k.val = k.val; rw [e1]; omega

/-- The weights' block is the whole staged weight matrix. -/
theorem weightBlock_apply (c : Dev nD) (t : Fin cfg0.N) (k o : Fin 2048) :
    (iblk m c 3 t : Vec Ideal S2048x2048 .bf16) (ix2 k o) = (V m c main_v9 : S2048x2048.Idx → EReal) (ix2 k o) := by
  obtain ⟨-, -, -, -, -, -, e0, e1, -⟩ := block_indices t
  unfold iblk
  rw [View.read_apply]
  show V m c main_v9 _ = V m c main_v9 _
  congr 1
  funext a
  apply Fin.ext
  match a with
  | ⟨0, _⟩ => show win0_3.index t 0 * 2048 + 1 * k.val = k.val; rw [e0]; omega
  | ⟨1, _⟩ => show win0_3.index t 1 * 2048 + 1 * o.val = o.val; rw [e1]; omega

/-- The bias's block is the whole staged bias. -/
theorem biasBlock_apply (c : Dev nD) (t : Fin cfg0.N) (u : Fin 1) (o : Fin 2048) :
    (iblk m c 4 t : Vec Ideal S1x2048 .f32) (ix2 u o) = (V m c main_v12 : S1x2048.Idx → EReal) (ix2 u o) := by
  obtain ⟨-, -, -, -, -, -, -, -, e0, e1, -⟩ := block_indices t
  unfold iblk
  rw [View.read_apply]
  show V m c main_v12 _ = V m c main_v12 _
  congr 1
  funext a
  apply Fin.ext
  match a with
  | ⟨0, _⟩ => show win0_4.index t 0 * 1 + 1 * u.val = u.val; rw [e0]; omega
  | ⟨1, _⟩ => show win0_4.index t 1 * 2048 + 1 * o.val = o.val; rw [e1]; omega

/-- The specification's output over the blocks of point t, at row p and column q, is the flat specification at row
    512·t + p: each block read where the staged arrays, and through them the arguments, hold it. -/
theorem block_spec (c : Dev nD) (t : Fin cfg0.N) (p : Fin 512) (q : Fin 2048) :
    affine (fun j => (iblk m c 0 t : Vec Ideal S512x2048 .f32) (ix2 p j))
        (fun j => (iblk m c 1 t : Vec Ideal S1x2048 .f32) (ix2 (0 : Fin 1) j))
        (fun j => (iblk m c 2 t : Vec Ideal S1x2048 .f32) (ix2 (0 : Fin 1) j))
        (fun k => (iblk m c 3 t : Vec Ideal S2048x2048 .bf16) (ix2 k q))
        ((iblk m c 4 t : Vec Ideal S1x2048 .f32) (ix2 (0 : Fin 1) q))
      = spec m c (ix2 (⟨512 * t.val + p.val, by have := t.isLt; have := points; omega⟩ : Fin 8192) q) := by
  have h0 := funext fun j => (inputBlock_apply m c t p j).trans (input_apply m c _ j)
  have h1 := funext fun j => (gainBlock_apply m c t 0 j).trans (gain_apply m c 0 j)
  have h2 := funext fun j => (shiftBlock_apply m c t 0 j).trans (shift_apply m c 0 j)
  have h3 := funext fun k => (weightBlock_apply m c t k q).trans (weights_apply m c k q)
  have h4 := (biasBlock_apply m c t 0 q).trans (bias_apply m c 0 q)
  exact congr (congr (congr (congr (congrArg affine h0) h1) h2) h3) h4

/-- WHAT POINT t WRITES BACK is block t of the flat specification. -/
theorem flushed_eq (c : Dev nD) (t : Fin cfg0.N) :
    (dats m 0 c).flushed 5 t = ((cfg0.win 5).blk t).view.read (Elt Ideal) (spec m c) := by
  show (cfg0.win 5).cut (grid0.coords t) ((dats m 0 c).after 5 t) = _
  rw [after0_5]
  unfold out0_5
  rw [View.canon_unit_zero hz]
  simp only [View.ld_unit_zero (S := S512x2048) hz, View.ld_unit_zero (S := S1x2048) hz, View.ld_unit_zero (S := S2048x2048) hz]
  obtain ⟨-, -, -, -, -, -, -, -, -, -, e0, e1⟩ := block_indices t
  funext j
  obtain ⟨p, q, rfl⟩ : ∃ (p : Fin 512) (q : Fin 2048), j = ix2 p q := ⟨j 0, j 1, eq_ix2 j⟩
  show k0_pay1 (iblk m c 0 t) (iblk m c 1 t) (iblk m c 2 t) (iblk m c 3 t) (iblk m c 4 t) (ix2 p q)
    = spec m c (((cfg0.win 5).blk t).view.emb (ix2 p q))
  have he : ((cfg0.win 5).blk t).view.emb (ix2 p q)
      = ix2 (⟨512 * t.val + p.val, by have := t.isLt; have := points; omega⟩ : Fin 8192) q := by
    funext a
    apply Fin.ext
    match a with
    | ⟨0, _⟩ => show win0_5.index t 0 * 512 + 1 * p.val = 512 * t.val + p.val; rw [e0]; omega
    | ⟨1, _⟩ => show win0_5.index t 1 * 2048 + 1 * q.val = q.val; rw [e1]; omega
  rw [he]
  exact (payload_apply _ _ _ _ _ p q).trans (block_spec m c t p q)

/-- An index of the output array is in point t's block iff each coordinate is in the block's range on its axis. -/
theorem mem_block (t : Fin cfg0.N) (i : S8192x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v14).slice (win0_5.rect t)).set ↔ _
  rw [View.set_slice_whole, Rect.mem_set_unit]
  exact Iff.rfl

/-- Every index of the output array is in the block of the point that holds its row. -/
theorem covered (i : S8192x2048.Idx) :
    ∃ t : Fin cfg0.N, (cfg0.win 5).flush t = true ∧ i ∈ ((cfg0.win 5).blk t).view.set := by
  have hr : (i 0).val < 8192 := idx2_lt0 i
  have hc : (i 1).val < 2048 := idx2_lt1 i
  obtain ⟨t, ht⟩ : ∃ t : Fin cfg0.N, t.val = (i 0).val / 512 := ⟨⟨(i 0).val / 512, by rw [points]; omega⟩, rfl⟩
  obtain ⟨-, -, -, -, -, -, -, -, -, -, e0, e1⟩ := block_indices t
  refine ⟨t, flush0_5 t, ?_⟩
  rw [mem_block]
  intro a
  match a with
  | ⟨0, _⟩ =>
    show win0_5.index t 0 * 512 ≤ (i 0).val ∧ (i 0).val < win0_5.index t 0 * 512 + 512
    rw [e0, ht]; omega
  | ⟨1, _⟩ =>
    show win0_5.index t 1 * 2048 ≤ (i 1).val ∧ (i 1).val < win0_5.index t 1 * 2048 + 2048
    rw [e1]; omega

/-- THE OUTPUT ARRAY after the region holds the flat specification. -/
theorem final (c : Dev nD) : (dats m 0 c).arrAt 5 cfg0.N = spec m c :=
  (dats m 0 c).arrAt_eq_of_cover 5 (spec m c) (fun t _ => flushed_eq m c t) covered

end Cert.LnTernary.Kernel

end
-- ==== Proof.KernelRun.lean ====
/-
  The kernel program's run, read: after the region the one host line reshapes the 8192-row output back to
  [4, 2048, 2048], so the result at (b, s, o) is the flat specification at row 2048·b + s, which is the specification's
  result at (b, s, o). The run is the generated frame run with that equation in its post; the arguments end unchanged.
-/
import proofs.«111783_j44135083934122_2_alg».proof.Proof.KernelBlocks
import Idealize.ShloMosaic.Lib.StableHlo.Run

noncomputable section

namespace Cert.LnTernary.Kernel

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.LnTernary

variable (m : (ℓ : Loc nD τ sig) → Buf (Elt Ideal) ℓ) (ρ : Dev nD → PrngReg)

/-- Row 2048·b + s of the flat specification is row (b, s) of the result. -/
theorem flat_row (X : FVec Ideal XShape .f32) (W : FVec Ideal WShape .f32) (β g b : FVec Ideal VShape .f32)
    (bb : Fin 4) (s o : Fin 2048) :
    flat X W β g b (ix2 (⟨bb.val * 2048 + s.val, by have := bb.isLt; have := s.isLt; omega⟩ : Fin 8192) o)
      = result X W β g b (ix3 bb s o) := by
  unfold flat
  refine congrArg (result X W β g b) ?_
  funext a
  match a with
  | ⟨0, _⟩ => exact Fin.ext (by show (bb.val * 2048 + s.val) / 2048 = bb.val; have := s.isLt; omega)
  | ⟨1, _⟩ => exact Fin.ext (by show (bb.val * 2048 + s.val) % 2048 = s.val; have := s.isLt; omega)
  | ⟨2, _⟩ => rfl

/-- The program's result buffer after the host line that follows the region. -/
theorem tail_eq (c : Dev nD) :
    (Pipeline.afterTail₀ cfgs (dats m) 0 (V0 m) [hostOps1] c main_v15 : S4x2048x2048.Idx → EReal)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v15) = _
  after_results
  have hw : Pipeline.withArrays (cfgs 0).spec c (V0 m c) (fun w => (dats m 0 c).arrAt w (cfgs 0).N) (Proc.devRef .tc main_v14)
      = spec m c :=
    (Pipeline.withArrays_arr spec0 launch0.win.arr_inj c _ _ 5).trans (final m c)
  funext i
  obtain ⟨b, s, o, rfl⟩ : ∃ (b : Fin 4) (s o : Fin 2048), i = ix3 b s o := ⟨i 0, i 1, i 2, eq_ix3 i⟩
  show shapeCast S4x2048x2048
      (Pipeline.withArrays (cfgs 0).spec c (V0 m c) (fun w => (dats m 0 c).arrAt w (cfgs 0).N) (Proc.devRef .tc main_v14))
      shapeCasts_S8192x2048_S4x2048x2048 (ix3 b s o) = _
  rw [hw]
  refine (shapeCast_apply (spec m c) _ (ix3 b s o)
    (ix2 (⟨b.val * 2048 + s.val, by have := b.isLt; have := s.isLt; omega⟩ : Fin 8192) o) ?_).trans ?_
  · show (S8192x2048.rowMajor (ix2 (⟨b.val * 2048 + s.val, by have := b.isLt; have := s.isLt; omega⟩ : Fin 8192) o)).val
      = (S4x2048x2048.rowMajor (ix3 b s o)).val
    rw [Shape.rowMajor_val_three, Shape.rowMajor_val_two]
    rfl
  · exact flat_row _ _ _ _ _ b s o

/-- THE KERNEL PROGRAM'S RUN: every weakly fair execution terminates with the result buffer at the specification's
    result of the arguments, and the arguments unchanged. -/
theorem run : θ_run defs (onTc (τ := τ) (main (F := Ideal))) ⟨m, fun _ => 0, ρ⟩ fun r => ∀ c : Dev nD,
      r.2.mem ((c.tc : Thread nD τ).loc main_v15)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.LnTernary.Kernel

end
-- ==== Proof.lean ====
/-
  A layer normalisation fused into a linear map with ternary weights, against its plain reference.

  Both programs compute, for the input x : [4, 2048, 2048], the weights W : [2048, 2048], the bias, the gain γ and the
  shift β, the array whose entry (b, s, o) is
      Σ_k  ( (x[b,s,k] − μ) · rsqrt(σ² + ε) · γ[k] + β[k] ) · q(W[o,k])  +  bias[o],
  with μ and σ² the mean and the variance of row (b, s), and q the quantiser v ↦ min 1 (max (−1) (round (v / (mean|W| + ε)))).
  The kernel program quantises the TRANSPOSED weights on the host, merges the input's two leading axes into 8192 rows,
  runs sixteen grid points of 512 rows each (row sums, a keep-axis broadcast, a matrix product into a zero accumulator
  after a change of float format), and reshapes the 8192 rows back; the reference normalises the rank-3 input and
  contracts it with the untransposed quantised weights. On the extended reals the two are the same operations on the same
  entries in the same order: the transposition, the reshapes and the tiling only move entries, the product into a zero
  accumulator is the contraction's sum, and a change of float format is the identity. No algebraic law beyond that is
  used, so the finiteness of the inputs is not needed for the value; the precondition only enters the frames' statements.

  The pieces: Proof/Spec.lean states the result once, entry by entry; Proof/RefSpec.lean reads the reference at an index
  to it; Proof/KernelPayload.lean reads the kernel body's stored block at an index to it; Proof/KernelHost.lean reads the
  arrays the region stages as the arguments; Proof/KernelBlocks.lean assembles the sixteen blocks into the output array;
  Proof/KernelRun.lean reads the reshape after the region and states the kernel program's run. The three frames are the
  generated ones; the idealisation rewrote nothing, so its claim is trivial.
-/
import proofs.«111783_j44135083934122_2_alg».proof.Defs
import proofs.«111783_j44135083934122_2_alg».proof.Proof.Gen.Kernel
import proofs.«111783_j44135083934122_2_alg».proof.Proof.Gen.Kernel.Skeleton
import proofs.«111783_j44135083934122_2_alg».proof.Proof.Gen.Kernel.Launch
import proofs.«111783_j44135083934122_2_alg».proof.Proof.Gen.Kernel.Points
import proofs.«111783_j44135083934122_2_alg».proof.Proof.Gen.Kernel.Frame
import proofs.«111783_j44135083934122_2_alg».proof.Proof.Gen.KernelIdeal
import proofs.«111783_j44135083934122_2_alg».proof.Proof.Gen.KernelIdeal.Skeleton
import proofs.«111783_j44135083934122_2_alg».proof.Proof.Gen.KernelIdeal.Launch
import proofs.«111783_j44135083934122_2_alg».proof.Proof.Gen.KernelIdeal.Points
import proofs.«111783_j44135083934122_2_alg».proof.Proof.Gen.KernelIdeal.Frame
import proofs.«111783_j44135083934122_2_alg».proof.Proof.Gen.ReferenceIdeal
import proofs.«111783_j44135083934122_2_alg».proof.Proof.Gen.ReferenceIdeal.Run
import proofs.«111783_j44135083934122_2_alg».proof.Proof.Gen.ReferenceIdeal.Read
import proofs.«111783_j44135083934122_2_alg».proof.Proof.Gen.Pre_finite_inputs
import proofs.«111783_j44135083934122_2_alg».proof.Proof.RefSpec
import proofs.«111783_j44135083934122_2_alg».proof.Proof.KernelRun
import Idealize.ShloMosaic.Adequacy
import Idealize.ShloMosaic.Init

noncomputable section

namespace Cert.Proof

open Idealize.ShloMosaic Idealize.ShloMosaic.TcCoe Idealize.SL.Sem

/-- The printed kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the specification's result of them. -/
theorem algebraic : Cert.algebraic_KernelIdeal_ReferenceIdeal := by
  intro m ρ m' ρ' _ hagree
  refine ⟨fun c => Cert.LnTernary.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.LnTernary.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.LnTernary.Ref.reference_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
